-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v228) = v0 c
          ∧ r.2.mem ((c.tc : Thread Cert.ReferenceIdeal.nD Cert.ReferenceIdeal.τ).loc Cert.ReferenceIdeal.main_v220) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x1 : Shape := ⟨2, ![65536, 1]⟩
abbrev S256x1024 : Shape := ⟨2, ![256, 1024]⟩
abbrev S256x768 : Shape := ⟨2, ![256, 768]⟩
abbrev S256x256 : Shape := ⟨2, ![256, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x1 : S_.BroadcastsInDim S65536x1 (![] : Fin 0 → Fin S65536x1.rank)
  reducesTo_S65536x1_S_d0_1 : S65536x1.ReducesTo [0, 1] S_
  bcast_S_S256x1024 : S_.BroadcastsInDim S256x1024 (![] : Fin 0 → Fin S256x1024.rank)
  reducesTo_S256x1024_S_d0_1 : S256x1024.ReducesTo [0, 1] S_
  bcast_S_S256x768 : S_.BroadcastsInDim S256x768 (![] : Fin 0 → Fin S256x768.rank)
  reducesTo_S256x768_S_d0_1 : S256x768.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x1024 .f32) (main_arg5 : FVec F S256x768 .f32) (main_arg6 : FVec F S256x256 .f32) (main_v13 : IVec S_ 1) (main_v16 : IVec S65536x256 1) : IVec S_ 1 :=
  let main_c_5 : IVec S_ 1 := constantI S_ 1 1#1
  let main_v17 : IVec S_ 1 := (fun x v => Host.reduce IntOp.andi x v reducesTo_S65536x256_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S256x768 .f32 := Host.absf main_arg5
  let main_cst_8 : FVec F S_ .f32 := constant S_ .f32 0x7F800000#32
  let main_v25 : FVec F S256x768 .f32 := broadcastInDim S256x768 ![] bcast_S_S256x768 main_cst_8
  let main_v26 : IVec S256x768 1 := cmpf .olt main_v24 main_v25
  let main_c_9 : IVec S_ 1 := constantI S_ 1 1#1
  let main_v27 : IVec S_ 1 := (fun x v => Host.reduce IntOp.andi x v reducesTo_S256x768_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  main_v33

def fn {F : FTy → Type} [FloatOps F] (main_arg0 : FVec F S65536x256 .f32) (main_arg1 : FVec F S65536x1 .f32) (main_arg2 : FVec F S65536x256 .f32) (main_arg3 : FVec F S65536x256 .f32) (main_arg4 : FVec F S256x1024 .f32) (main_arg5 : FVec F S256x768 .f32) (main_arg6 : FVec F S256x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x1 .f32 := Host.absf main_arg1
  let main_cst_0 : FVec F S_ .f32 := constant S_ .f32 0x7F800000#32
  let main_v5 : FVec F S65536x1 .f32 := broadcastInDim S65536x1 ![] bcast_S_S65536x1 main_cst_0
  let main_v6 : IVec S65536x1 1 := cmpf .olt main_v4 main_v5
  let main_c_1 : IVec S_ 1 := constantI S_ 1 1#1
  let main_v7 : IVec S_ 1 := (fun x v => Host.reduce IntOp.andi x v reducesTo_S65536x1_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S65536x256 .f32 := Host.absf main_arg3
  let main_cst_4 : FVec F S_ .f32 := constant S_ .f32 0x7F800000#32
  let main_v15 : FVec F S65536x256 .f32 := broadcastInDim S65536x256 ![] bcast_S_S65536x256 main_cst_4
  let main_v16 : IVec S65536x256 1 := cmpf .olt main_v14 main_v15
  fn_part1 (F := F) main_arg4 main_arg5 main_arg6 main_v13 main_v16
-- ==== Kernel.lean ====
abbrev S65536x256 : Shape := ⟨2, ![65536, 256]⟩
abbrev S65536x1 : Shape := ⟨2, ![65536, 1]⟩
abbrev S256x1024 : Shape := ⟨2, ![256, 1024]⟩
abbrev S256x768 : Shape := ⟨2, ![256, 768]⟩
abbrev S256x256 : Shape := ⟨2, ![256, 256]⟩
abbrev S1024x256 : Shape := ⟨2, ![1024, 256]⟩
abbrev S1024x1 : Shape := ⟨2, ![1024, 1]⟩
abbrev S1024x1024 : Shape := ⟨2, ![1024, 1024]⟩
abbrev S1024x768 : Shape := ⟨2, ![1024, 768]⟩

abbrev nBuf : Space → Nat
  | .hbm => 9
  | .vmem => 15
  | .smem => 0
  | _ => 0

abbrev bufTy : (tb : Table) → Fin (tcTables nBuf tb) → BufTy
  | .hbm, ⟨0, _⟩ => ⟨S65536x256, .f32⟩
  | .hbm, ⟨1, _⟩ => ⟨S65536x1, .f32⟩
  | .hbm, ⟨2, _⟩ => ⟨S65536x256, .f32⟩
  | .hbm, ⟨3, _⟩ => ⟨S65536x256, .f32⟩
  | .hbm, ⟨4, _⟩ => ⟨S256x1024, .f32⟩
  | .hbm, ⟨5, _⟩ => ⟨S256x768, .f32⟩
  | .hbm, ⟨6, _⟩ => ⟨S256x256, .f32⟩
  | .hbm, ⟨7, _⟩ => ⟨S65536x256, .f32⟩
  | .hbm, ⟨8, _⟩ => ⟨S65536x256, .f32⟩
  | .local _ .vmem, ⟨0, _⟩ => ⟨S1024x256, .f32⟩
  | .local _ .vmem, ⟨1, _⟩ => ⟨S1024x256, .f32⟩
  | .local _ .vmem, ⟨2, _⟩ => ⟨S1024x1, .f32⟩
  | .local _ .vmem, ⟨3, _⟩ => ⟨S1024x1, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S256x1024, .f32⟩
  | .local _ .vmem, ⟨9, _⟩ => ⟨S256x768, .f32⟩
  | .local _ .vmem, ⟨10, _⟩ => ⟨S256x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S1024x1_S1024x1_0_0 : ∀ a, (![0, 0] : Fin 2 → Nat) a + S1024x1.size a ≤ S1024x1.size a
  h_S1024x1 : 0 < S1024x1.numel
  inb_S1024x256_S1024x256_0_0 : ∀ a, (![0, 0] : Fin 2 → Nat) a + S1024x256.size a ≤ S1024x256.size a
  h_S1024x256 : 0 < S1024x256.numel
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  inb_S256x768_S256x768_0_0 : ∀ a, (![0, 0] : Fin 2 → Nat) a + S256x768.size a ≤ S256x768.size a
  h_S256x768 : 0 < S256x768.numel
  inb_S256x256_S256x256_0_0 : ∀ a, (![0, 0] : Fin 2 → Nat) a + S256x256.size a ≤ S256x256.size a
  h_S256x256 : 0 < S256x256.numel
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  broadcasts_S1024x1_S1024x256 : S1024x1.Broadcasts S1024x256
  dot_S1024x256_S256x1024_S1024x1024_1_0_0_1_n_n_wf : DotDims.WF S1024x256 S256x1024 S1024x1024 [1] [0] [0] [1] [] []
  dot_S1024x256_S256x768_S1024x768_1_0_0_1_n_n_wf : DotDims.WF S1024x256 S256x768 S1024x768 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S65536x1.size a
  hwx0_1 : ∀ i : grid0.Coords, EltTy.bits .f32 = 32 ∨ (Rect.block (s := S65536x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S65536x256.size a
  hwx0_3 : ∀ i : grid0.Coords, EltTy.bits .f32 = 32 ∨ (Rect.block (s := S65536x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .f32 = 32 ∨ (Rect.block (s := S256x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x768.size a ≤ S256x768.size a
  hwx0_5 : ∀ i : grid0.Coords, EltTy.bits .f32 = 32 ∨ (Rect.block (s := S256x768) S256x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S65536x256.size a
  hwx0_7 : ∀ i : grid0.Coords, EltTy.bits .f32 = 32 ∨ (Rect.block (s := S65536x256) S1024x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S65536x256.size a
  hwx0_8 : ∀ i : grid0.Coords, EltTy.bits .f32 = 32 ∨ (Rect.block (s := S65536x256) S1024x256.size (cc0_transform_8 i) (hinb0_8 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1024x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x1 : Shape := ⟨2, ![65536, 1]⟩
abbrev S256x1024 : Shape := ⟨2, ![256, 1024]⟩
abbrev S256x768 : Shape := ⟨2, ![256, 768]⟩
abbrev S256x256 : Shape := ⟨2, ![256, 256]⟩
abbrev S_ : Shape := ⟨0, ![]⟩
abbrev S65536x1024 : Shape := ⟨2, ![65536, 1024]⟩
abbrev S65536x768 : Shape := ⟨2, ![65536, 768]⟩

abbrev nBuf : Space → Nat
  | .hbm => 273
  | .vmem => 0
  | .smem => 0
  | _ => 0

abbrev hbmTy0_0 (i : Nat) : BufTy := match i % 128 with
  | 0 => ⟨S65536x256, .f32⟩
  | 1 => ⟨S65536x1, .f32⟩
  | 2 => ⟨S65536x256, .f32⟩
  | 3 => ⟨S65536x256, .f32⟩
  | 4 => ⟨S256x1024, .f32⟩
  | 5 => ⟨S256x768, .f32⟩
  | 6 => ⟨S256x256, .f32⟩
  | 7 => ⟨S_, .f32⟩
  | 8 => ⟨S65536x1, .f32⟩
  | 9 => ⟨S65536x1, .f32⟩
  | 10 => ⟨S65536x1024, .f32⟩
  | 11 => ⟨S65536x256, .f32⟩
  | 12 => ⟨S65536x256, .f32⟩
  | 13 => ⟨S65536x256, .f32⟩
  | 14 => ⟨S65536x256, .f32⟩
  | 15 => ⟨S65536x768, .f32⟩
  | 16 => ⟨S65536x256, .f32⟩
  | 17 => ⟨S65536x256, .f32⟩
  | 18 => ⟨S65536x256, .f32⟩
  | 19 => ⟨S65536x256, .f32⟩
  | 20 => ⟨S65536x256, .f32⟩
  | 21 => ⟨S65536x256, .f32⟩
  | 22 => ⟨S_, .f32⟩
  | 23 => ⟨S65536x256, .f32⟩
  | 24 => ⟨S65536x256, .f32⟩
  | 25 => ⟨S_, .f32⟩
  | 26 => ⟨S65536x256, .f32⟩
  | 27 => ⟨S65536x256, .f32⟩
  | 28 => ⟨S65536x256, .f32⟩
  | 29 => ⟨S65536x256, .f32⟩
  | 30 => ⟨S65536x256, .f32⟩
  | 31 => ⟨S65536x256, .f32⟩
  | 32 => ⟨S65536x256, .f32⟩
  | 33 => ⟨S_, .f32⟩
  | 34 => ⟨S65536x256, .f32⟩
  | 35 => ⟨S65536x256, .f32⟩
  | 36 => ⟨S_, .f32⟩
  | 37 => ⟨S65536x256, .f32⟩
  | 38 => ⟨S65536x256, .f32⟩
  | 39 => ⟨S65536x256, .f32⟩
  | 40 => ⟨S65536x256, .f32⟩
  | 41 => ⟨S_, .f32⟩
  | 42 => ⟨S65536x256, .f32⟩
  | 43 => ⟨S65536x256, .f32⟩
  | 44 => ⟨S65536x256, .f32⟩
  | 45 => ⟨S65536x256, .f32⟩
  | 46 => ⟨S65536x256, .f32⟩
  | 47 => ⟨S65536x256, .f32⟩
  | 48 => ⟨S65536x256, .f32⟩
  | 49 => ⟨S_, .f32⟩
  | 50 => ⟨S65536x256, .f32⟩
  | 51 => ⟨S65536x256, .f32⟩
  | 52 => ⟨S65536x256, .f32⟩
  | 53 => ⟨S65536x256, .f32⟩
  | 54 => ⟨S65536x256, .f32⟩
  | 55 => ⟨S65536x256, .f32⟩
  | 56 => ⟨S65536x256, .f32⟩
  | 57 => ⟨S65536x256, .f32⟩
  | 58 => ⟨S65536x768, .f32⟩
  | 59 => ⟨S65536x256, .f32⟩
  | 60 => ⟨S65536x256, .f32⟩
  | 61 => ⟨S65536x256, .f32⟩
  | 62 => ⟨S65536x256, .f32⟩
  | 63 => ⟨S65536x256, .f32⟩
  | 64 => ⟨S65536x256, .f32⟩
  | 65 => ⟨S_, .f32⟩
  | 66 => ⟨S65536x256, .f32⟩
  | 67 => ⟨S65536x256, .f32⟩
  | 68 => ⟨S_, .f32⟩
  | 69 => ⟨S65536x256, .f32⟩
  | 70 => ⟨S65536x256, .f32⟩
  | 71 => ⟨S65536x256, .f32⟩
  | 72 => ⟨S65536x256, .f32⟩
  | 73 => ⟨S65536x256, .f32⟩
  | 74 => ⟨S65536x256, .f32⟩
  | 75 => ⟨S65536x256, .f32⟩
  | 76 => ⟨S_, .f32⟩
  | 77 => ⟨S65536x256, .f32⟩
  | 78 => ⟨S65536x256, .f32⟩
  | 79 => ⟨S_, .f32⟩
  | 80 => ⟨S65536x256, .f32⟩
  | 81 => ⟨S65536x256, .f32⟩
  | 82 => ⟨S65536x256, .f32⟩
  | 83 => ⟨S65536x256, .f32⟩
  | 84 => ⟨S_, .f32⟩
  | 85 => ⟨S65536x256, .f32⟩
  | 86 => ⟨S65536x256, .f32⟩
  | 87 => ⟨S65536x256, .f32⟩
  | 88 => ⟨S65536x256, .f32⟩
  | 89 => ⟨S65536x256, .f32⟩
  | 90 => ⟨S65536x256, .f32⟩
  | 91 => ⟨S65536x256, .f32⟩
  | 92 => ⟨S_, .f32⟩
  | 93 => ⟨S65536x256, .f32⟩
  | 94 => ⟨S65536x256, .f32⟩
  | 95 => ⟨S65536x256, .f32⟩
  | 96 => ⟨S65536x256, .f32⟩
  | 97 => ⟨S65536x256, .f32⟩
  | 98 => ⟨S65536x256, .f32⟩
  | 99 => ⟨S65536x256, .f32⟩
  | 100 => ⟨S65536x256, .f32⟩
  | 101 => ⟨S65536x768, .f32⟩
  | 102 => ⟨S65536x256, .f32⟩
  | 103 => ⟨S65536x256, .f32⟩
  | 104 => ⟨S65536x256, .f32⟩
  | 105 => ⟨S65536x256, .f32⟩
  | 106 => ⟨S65536x256, .f32⟩
  | 107 => ⟨S65536x256, .f32⟩
  | 108 => ⟨S_, .f32⟩
  | 109 => ⟨S65536x256, .f32⟩
  | 110 => ⟨S65536x256, .f32⟩
  | 111 => ⟨S_, .f32⟩
  | 112 => ⟨S65536x256, .f32⟩
  | 113 => ⟨S65536x256, .f32⟩
  | 114 => ⟨S65536x256, .f32⟩
  | 115 => ⟨S65536x256, .f32⟩
  | 116 => ⟨S65536x256, .f32⟩
  | 117 => ⟨S65536x256, .f32⟩
  | 118 => ⟨S65536x256, .f32⟩
  | 119 => ⟨S_, .f32⟩
  | 120 => ⟨S65536x256, .f32⟩
  | 121 => ⟨S65536x256, .f32⟩
  | 122 => ⟨S_, .f32⟩
  | 123 => ⟨S65536x256, .f32⟩
  | 124 => ⟨S65536x256, .f32⟩
  | 125 => ⟨S65536x256, .f32⟩
  | 126 => ⟨S65536x256, .f32⟩
  | 127 => ⟨S_, .f32⟩
  | _ => ⟨S65536x256, .f32⟩

abbrev hbmTy0_1 (i : Nat) : BufTy := match i % 128 with
  | 0 => ⟨S65536x256, .f32⟩
  | 1 => ⟨S65536x256, .f32⟩
  | 2 => ⟨S65536x256, .f32⟩
  | 3 => ⟨S65536x256, .f32⟩
  | 4 => ⟨S65536x256, .f32⟩
  | 5 => ⟨S65536x256, .f32⟩
  | 6 => ⟨S65536x256, .f32⟩
  | 7 => ⟨S_, .f32⟩
  | 8 => ⟨S65536x256, .f32⟩
  | 9 => ⟨S65536x256, .f32⟩
  | 10 => ⟨S65536x256, .f32⟩
  | 11 => ⟨S65536x256, .f32⟩
  | 12 => ⟨S65536x256, .f32⟩
  | 13 => ⟨S65536x256, .f32⟩
  | 14 => ⟨S65536x256, .f32⟩
  | 15 => ⟨S65536x256, .f32⟩
  | 16 => ⟨S65536x768, .f32⟩
  | 17 => ⟨S65536x256, .f32⟩
  | 18 => ⟨S65536x256, .f32⟩
  | 19 => ⟨S65536x256, .f32⟩
  | 20 => ⟨S65536x256, .f32⟩
  | 21 => ⟨S65536x256, .f32⟩
  | 22 => ⟨S65536x256, .f32⟩
  | 23 => ⟨S_, .f32⟩
  | 24 => ⟨S65536x256, .f32⟩
  | 25 => ⟨S65536x256, .f32⟩
  | 26 => ⟨S_, .f32⟩
  | 27 => ⟨S65536x256, .f32⟩
  | 28 => ⟨S65536x256, .f32⟩
  | 29 => ⟨S65536x256, .f32⟩
  | 30 => ⟨S65536x256, .f32⟩
  | 31 => ⟨S65536x256, .f32⟩
  | 32 => ⟨S65536x256, .f32⟩
  | 33 => ⟨S65536x256, .f32⟩
  | 34 => ⟨S_, .f32⟩
  | 35 => ⟨S65536x256, .f32⟩
  | 36 => ⟨S65536x256, .f32⟩
  | 37 => ⟨S_, .f32⟩
  | 38 => ⟨S65536x256, .f32⟩
  | 39 => ⟨S65536x256, .f32⟩
  | 40 => ⟨S65536x256, .f32⟩
  | 41 => ⟨S65536x256, .f32⟩
  | 42 => ⟨S_, .f32⟩
  | 43 => ⟨S65536x256, .f32⟩
  | 44 => ⟨S65536x256, .f32⟩
  | 45 => ⟨S65536x256, .f32⟩
  | 46 => ⟨S65536x256, .f32⟩
  | 47 => ⟨S65536x256, .f32⟩
  | 48 => ⟨S65536x256, .f32⟩
  | 49 => ⟨S65536x256, .f32⟩
  | 50 => ⟨S_, .f32⟩
  | 51 => ⟨S65536x256, .f32⟩
  | 52 => ⟨S65536x256, .f32⟩
  | 53 => ⟨S65536x256, .f32⟩
  | 54 => ⟨S65536x256, .f32⟩
  | 55 => ⟨S65536x256, .f32⟩
  | 56 => ⟨S65536x256, .f32⟩
  | 57 => ⟨S65536x256, .f32⟩
  | 58 => ⟨S65536x256, .f32⟩
  | 59 => ⟨S65536x768, .f32⟩
  | 60 => ⟨S65536x256, .f32⟩
  | 61 => ⟨S65536x256, .f32⟩
  | 62 => ⟨S65536x256, .f32⟩
  | 63 => ⟨S65536x256, .f32⟩
  | 64 => ⟨S65536x256, .f32⟩
  | 65 => ⟨S65536x256, .f32⟩
  | 66 => ⟨S_, .f32⟩
  | 67 => ⟨S65536x256, .f32⟩
  | 68 => ⟨S65536x256, .f32⟩
  | 69 => ⟨S_, .f32⟩
  | 70 => ⟨S65536x256, .f32⟩
  | 71 => ⟨S65536x256, .f32⟩
  | 72 => ⟨S65536x256, .f32⟩
  | 73 => ⟨S65536x256, .f32⟩
  | 74 => ⟨S65536x256, .f32⟩
  | 75 => ⟨S65536x256, .f32⟩
  | 76 => ⟨S65536x256, .f32⟩
  | 77 => ⟨S_, .f32⟩
  | 78 => ⟨S65536x256, .f32⟩
  | 79 => ⟨S65536x256, .f32⟩
  | 80 => ⟨S_, .f32⟩
  | 81 => ⟨S65536x256, .f32⟩
  | 82 => ⟨S65536x256, .f32⟩
  | 83 => ⟨S65536x256, .f32⟩
  | 84 => ⟨S65536x256, .f32⟩
  | 85 => ⟨S_, .f32⟩
  | 86 => ⟨S65536x256, .f32⟩
  | 87 => ⟨S65536x256, .f32⟩
  | 88 => ⟨S65536x256, .f32⟩
  | 89 => ⟨S65536x256, .f32⟩
  | 90 => ⟨S65536x256, .f32⟩
  | 91 => ⟨S65536x256, .f32⟩
  | 92 => ⟨S65536x256, .f32⟩
  | 93 => ⟨S_, .f32⟩
  | 94 => ⟨S65536x256, .f32⟩
  | 95 => ⟨S65536x256, .f32⟩
  | 96 => ⟨S65536x256, .f32⟩
  | 97 => ⟨S65536x256, .f32⟩
  | 98 => ⟨S65536x256, .f32⟩
  | 99 => ⟨S65536x256, .f32⟩
  | 100 => ⟨S65536x256, .f32⟩
  | 101 => ⟨S65536x256, .f32⟩
  | 102 => ⟨S65536x768, .f32⟩
  | 103 => ⟨S65536x256, .f32⟩
  | 104 => ⟨S65536x256, .f32⟩
  | 105 => ⟨S65536x256, .f32⟩
  | 106 => ⟨S65536x256, .f32⟩
  | 107 => ⟨S65536x256, .f32⟩
  | 108 => ⟨S65536x256, .f32⟩
  | 109 => ⟨S_, .f32⟩
  | 110 => ⟨S65536x256, .f32⟩
  | 111 => ⟨S65536x256, .f32⟩
  | 112 => ⟨S_, .f32⟩
  | 113 => ⟨S65536x256, .f32⟩
  | 114 => ⟨S65536x256, .f32⟩
  | 115 => ⟨S65536x256, .f32⟩
  | 116 => ⟨S65536x256, .f32⟩
  | 117 => ⟨S65536x256, .f32⟩
  | 118 => ⟨S65536x256, .f32⟩
  | 119 => ⟨S65536x256, .f32⟩
  | 120 => ⟨S_, .f32⟩
  | 121 => ⟨S65536x256, .f32⟩
  | 122 => ⟨S65536x256, .f32⟩
  | 123 => ⟨S_, .f32⟩
  | 124 => ⟨S65536x256, .f32⟩
  | 125 => ⟨S65536x256, .f32⟩
  | 126 => ⟨S65536x256, .f32⟩
  | 127 => ⟨S65536x256, .f32⟩
  | _ => ⟨S65536x256, .f32⟩

abbrev hbmTy0_2 (i : Nat) : BufTy := match i % 128 with
  | 0 => ⟨S_, .f32⟩
  | 1 => ⟨S65536x256, .f32⟩
  | 2 => ⟨S65536x256, .f32⟩
  | 3 => ⟨S65536x256, .f32⟩
  | 4 => ⟨S65536x256, .f32⟩
  | 5 => ⟨S65536x256, .f32⟩
  | 6 => ⟨S65536x256, .f32⟩
  | 7 => ⟨S65536x256, .f32⟩
  | 8 => ⟨S_, .f32⟩
  | 9 => ⟨S65536x256, .f32⟩
  | 10 => ⟨S65536x256, .f32⟩
  | 11 => ⟨S65536x256, .f32⟩
  | 12 => ⟨S65536x256, .f32⟩
  | 13 => ⟨S65536x256, .f32⟩
  | 14 => ⟨S65536x256, .f32⟩
  | 15 => ⟨S65536x256, .f32⟩
  | 16 => ⟨S65536x256, .f32⟩
  | _ => ⟨S65536x256, .f32⟩

abbrev hbmTy (i : Nat) : BufTy := match i / 128 with
  | 0 => hbmTy0_0 i
  | 1 => hbmTy0_1 i
  | 2 => hbmTy0_2 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_cst_9 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_10 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_11 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_12 : Ref sig .tc := ⟨.hbm, 108, rfl⟩
abbrev main_v88 : Ref sig .tc := ⟨.hbm, 109, rfl⟩
abbrev main_v89 : Ref sig .tc := ⟨.hbm, 110, rfl⟩
abbrev main_cst_13 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_14 : Ref sig .tc := ⟨.hbm, 119, rfl⟩
abbrev main_v97 : Ref sig .tc := ⟨.hbm, 120, rfl⟩
abbrev main_v98 : Ref sig .tc := ⟨.hbm, 121, rfl⟩
abbrev main_cst_15 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_16 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_17 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_18 : Ref sig .tc := ⟨.hbm, 151, rfl⟩
abbrev main_v125 : Ref sig .tc := ⟨.hbm, 152, rfl⟩
abbrev main_v126 : Ref sig .tc := ⟨.hbm, 153, rfl⟩
abbrev main_cst_19 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_cst_20 : Ref sig .tc := ⟨.hbm, 162, rfl⟩
abbrev main_v134 : Ref sig .tc := ⟨.hbm, 163, rfl⟩
abbrev main_v135 : Ref sig .tc := ⟨.hbm, 164, rfl⟩
abbrev main_cst_21 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_cst_22 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_cst_23 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_cst_24 : Ref sig .tc := ⟨.hbm, 194, rfl⟩
abbrev main_v162 : Ref sig .tc := ⟨.hbm, 195, rfl⟩
abbrev main_v163 : Ref sig .tc := ⟨.hbm, 196, rfl⟩
abbrev main_cst_25 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_cst_26 : Ref sig .tc := ⟨.hbm, 205, rfl⟩
abbrev main_v171 : Ref sig .tc := ⟨.hbm, 206, rfl⟩
abbrev main_v172 : Ref sig .tc := ⟨.hbm, 207, rfl⟩
abbrev main_cst_27 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_cst_28 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_cst_29 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_cst_30 : Ref sig .tc := ⟨.hbm, 237, rfl⟩
abbrev main_v199 : Ref sig .tc := ⟨.hbm, 238, rfl⟩
abbrev main_v200 : Ref sig .tc := ⟨.hbm, 239, rfl⟩
abbrev main_cst_31 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_cst_32 : Ref sig .tc := ⟨.hbm, 248, rfl⟩
abbrev main_v208 : Ref sig .tc := ⟨.hbm, 249, rfl⟩
abbrev main_v209 : Ref sig .tc := ⟨.hbm, 250, rfl⟩
abbrev main_cst_33 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_cst_34 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_cst_35 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩

abbrev nD : Nat := 1
abbrev τ : Topo := Topo.v7x

variable {F : FTy → Type} [FloatOps F]

class Facts₀ : Prop where
  bcast_S_S65536x1 : S_.BroadcastsInDim S65536x1 (![] : Fin 0 → Fin S65536x1.rank)
  slices_S65536x1024_S65536x256_0_0 : S65536x1024.Slices ![0, 0] S65536x256
  slices_S65536x1024_S65536x256_0_256 : S65536x1024.Slices ![0, 256] S65536x256
  slices_S65536x1024_S65536x256_0_512 : S65536x1024.Slices ![0, 512] S65536x256
  slices_S65536x1024_S65536x256_0_768 : S65536x1024.Slices ![0, 768] S65536x256
  slices_S65536x768_S65536x256_0_0 : S65536x768.Slices ![0, 0] S65536x256
  slices_S65536x768_S65536x256_0_256 : S65536x768.Slices ![0, 256] S65536x256
  slices_S65536x768_S65536x256_0_512 : S65536x768.Slices ![0, 512] S65536x256
  bcast_S_S65536x256 : S_.BroadcastsInDim S65536x256 (![] : Fin 0 → Fin S65536x256.rank)
  bcast_S65536x1_S65536x256_0_1 : S65536x1.BroadcastsInDim S65536x256 (![0, 1] : Fin 2 → Fin S65536x256.rank)
  dot_S65536x256_S256x1024_S65536x1024_1_0_0_1_n_n_wf : DotDims.WF S65536x256 S256x1024 S65536x1024 [1] [0] [0] [1] [] []
  dot_S65536x256_S256x768_S65536x768_1_0_0_1_n_n_wf : DotDims.WF S65536x256 S256x768 S65536x768 [1] [0] [0] [1] [] []
  dot_S65536x256_S256x256_S65536x256_1_0_0_1_n_n_wf : DotDims.WF S65536x256 S256x256 S65536x256 [1] [0] [0] [1] [] []

variable [Facts₀]

def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf
def dot_S65536x256_S256x768_S65536x768_1_0_0_1_n_n : DotDims S65536x256 S256x768 S65536x768 where
  lhsContracting := [1]
  rhsContracting := [0]
  lhsNonContracting := [0]
  rhsNonContracting := [1]
  lhsBatch := []
  rhsBatch := []
  wf := dot_S65536x256_S256x768_S65536x768_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.RowSpec.lean ====
/-
  One row of the gated two-state update, on the extended reals.

  Both programs advance two hidden states `y` and `z` (256 numbers per batch row) six times. One update reads, for a
  batch row: the row's time step `dt` (already divided by six), the row of `x · inp2hid` cut into four pieces of 256
  (`a1`, `a2` feed the two gates, `a3` the new `y`, `a4` the new `z`), and the two weight matrices `hid2hid`
  (256 × 768) and `transform_z` (256 × 256). With `h = y · hid2hid` cut into three pieces of 256:

      gz = dt · σ(a2 + h[256..512))          z' = (1 − gz) · z + gz · tanh(a4 + h[512..768))
      gy = dt · σ(a1 + h[0..256))            y' = (1 − gy) · y + gy · tanh(z' · transform_z + a3)

  Nothing here mixes two batch rows: that is what lets a program working on 1024 rows at a time and one working on all
  65536 rows compute the same numbers. The literal `1.0` is kept as its word; only the sigmoid's two spellings
  (`σ s` as one operation, and `1 / (1 + exp (−s))`) need its value.
-/
import Idealize.ShloMosaic.PureOps.Ideal
import Idealize.ShloMosaic.Lib.ValueIdx

noncomputable section

namespace Cert.Lem

open Idealize.ShloMosaic Idealize.ShloMosaic.ValueIdx

/-- One batch row of a hidden state. -/
abbrev Row := Fin 256 → EReal

/-- The float literal `1.0`, as both programs print it. -/
abbrev one : EReal := Ideal.ofBits .f32 0x3F800000#32

/-- The float literal `6.0`, the number of updates, as both programs print it. -/
abbrev six : EReal := Ideal.ofBits .f32 0x40C00000#32

/-- The word `0x3F800000` denotes the extended real `1`. -/
theorem one_eq : one = 1 := by
  simp [one, Ideal.ofBits, Ideal.ieee, -EReal.coe_mul]; norm_num

/-- The sigmoid written out, `1 / (1 + exp (−s))` with the literal `1.0`, is the sigmoid as one operation: on every
    extended real, the infinities included, since the one operation is defined as that quotient. -/
theorem sigmoid_spelled (s : EReal) : Ideal.div one (one + Ideal.exp (-s)) = Ideal.logistic s := by
  rw [one_eq]; rfl

/-- Column `o + q` of a matrix with `n` columns, for `q` inside a piece of 256 that starts at column `o`. -/
def col {n : Nat} (o : Nat) (h : o + 256 ≤ n) (q : Fin 256) : Fin n := ⟨o + q.val, by have := q.isLt; omega⟩

theorem col_val {n : Nat} (o : Nat) (h : o + 256 ≤ n) (q : Fin 256) : (col o h q : Fin n).val = o + q.val := rfl

/-- A row times a matrix with 256 rows: entry `j` of `v · W`. -/
def rowMul {n : Nat} (W : Fin 256 → Fin n → EReal) (v : Row) (j : Fin n) : EReal := ∑ k : Fin 256, v k * W k j

/-- What one batch row's update reads besides the row's own `y` and `z`. -/
structure Par where
  /-- the row's time step, already divided by the number of updates -/
  dt : EReal
  /-- the four pieces of the row of `x · inp2hid` -/
  a1 : Row
  a2 : Row
  a3 : Row
  a4 : Row
  /-- `hid2hid` -/
  Wh : Fin 256 → Fin 768 → EReal
  /-- `transform_z` -/
  Wz : Fin 256 → Fin 256 → EReal

/-- A gate: the time step times the sigmoid of its argument. -/
def gate (dt s : EReal) : EReal := dt * Ideal.logistic s

/-- The new `z` of a row. -/
def newZ (P : Par) (y z : Row) : Row := fun q =>
  (one - gate P.dt (P.a2 q + rowMul P.Wh y (col 256 (by norm_num) q))) * z q
    + gate P.dt (P.a2 q + rowMul P.Wh y (col 256 (by norm_num) q)) * Ideal.tanh (P.a4 q + rowMul P.Wh y (col 512 (by norm_num) q))

/-- The new `y` of a row, from the old `y` and the NEW `z`. -/
def newY (P : Par) (y z' : Row) : Row := fun q =>
  (one - gate P.dt (P.a1 q + rowMul P.Wh y (col 0 (by norm_num) q))) * y q
    + gate P.dt (P.a1 q + rowMul P.Wh y (col 0 (by norm_num) q)) * Ideal.tanh (rowMul P.Wz z' q + P.a3 q)

/-- One update of a row's pair `(y, z)`. -/
def step (P : Par) (s : Row × Row) : Row × Row := (newY P s.1 (newZ P s.1 s.2), newZ P s.1 s.2)

/-- If a map `π` (reading one batch row out of a program's whole state) carries a program's update `f` to the row
    update `g`, it carries `n` updates to `n` row updates. -/
theorem iterate_row {S R : Type} (f : S → S) (g : R → R) (π : S → R) (h : ∀ s, π (f s) = g (π s)) (n : Nat) (s : S) :
    π (f^[n] s) = g^[n] (π s) := by
  induction n generalizing s with
  | zero => rfl
  | succ n ih => rw [Function.iterate_succ_apply, Function.iterate_succ_apply, ih, h]

/-! ## The two results as functions of the seven argument arrays -/

/-- A matrix of extended reals with `r` rows and `c` columns, indexed as the programs index their arrays. -/
abbrev Mat (r c : Nat) : Type := (⟨2, ![r, c]⟩ : Shape).Idx → EReal

/-- Row `a` of a matrix. -/
def rowAt {r c : Nat} (M : Mat r c) (a : Fin r) : Fin c → EReal := fun b => M (ix2 a b)

/-- A matrix as a function of its row and its column. -/
def entries {r c : Nat} (M : Mat r c) : Fin r → Fin c → EReal := fun a b => M (ix2 a b)

/-- The pair of rows `p` of a pair of matrices. -/
def rows {r c : Nat} (p : Fin r) (s : Mat r c × Mat r c) : (Fin c → EReal) × (Fin c → EReal) := (rowAt s.1 p, rowAt s.2 p)

/-- What a batch row's updates read, from the row of `x`, the row's time step and the three weight matrices: the time
    step over six, the four pieces of `x_row · inp2hid` (columns 0, 256, 512, 768), and the two other matrices. -/
def parOf (x : Row) (dt : EReal) (W1 : Fin 256 → Fin 1024 → EReal) (Wh : Fin 256 → Fin 768 → EReal)
    (Wz : Fin 256 → Fin 256 → EReal) : Par where
  dt := Ideal.div dt six
  a1 := fun q => rowMul W1 x (col 0 (by norm_num) q)
  a2 := fun q => rowMul W1 x (col 256 (by norm_num) q)
  a3 := fun q => rowMul W1 x (col 512 (by norm_num) q)
  a4 := fun q => rowMul W1 x (col 768 (by norm_num) q)
  Wh := Wh
  Wz := Wz

/-- What the updates of batch row `r` of the whole arrays read. -/
def parAt (X : Mat 65536 256) (DT : Mat 65536 1) (W1 : Mat 256 1024) (Wh : Mat 256 768) (Wz : Mat 256 256)
    (r : Fin 65536) : Par :=
  parOf (rowAt X r) (DT (ix2 r (0 : Fin 1))) (entries W1) (entries Wh) (entries Wz)

/-- Six updates of a row's pair `(y, z)`. -/
def rowRun (P : Par) (y z : Row) : Row × Row := (step P)^[6] (y, z)

/-- The first result: `y` after six updates, each batch row from that row of the arguments alone. -/
def finalY (X : Mat 65536 256) (DT : Mat 65536 1) (Y Z : Mat 65536 256) (W1 : Mat 256 1024) (Wh : Mat 256 768)
    (Wz : Mat 256 256) : Mat 65536 256 :=
  fun i => (rowRun (parAt X DT W1 Wh Wz (i 0)) (rowAt Y (i 0)) (rowAt Z (i 0))).1 (i 1)

/-- The second result: `z` after six updates. -/
def finalZ (X : Mat 65536 256) (DT : Mat 65536 1) (Y Z : Mat 65536 256) (W1 : Mat 256 1024) (Wh : Mat 256 768)
    (Wz : Mat 256 256) : Mat 65536 256 :=
  fun i => (rowRun (parAt X DT W1 Wh Wz (i 0)) (rowAt Y (i 0)) (rowAt Z (i 0))).2 (i 1)

end Cert.Lem

end
-- ==== Proof.IndexLaws.lean ====
/-
  The few non-pointwise operations of the two programs, read at a row and a column.

  Every array here is a matrix `[rows, columns]`; an index is `ix2 p q` (row `p`, column `q`). The programs use:
  a matrix product `[n, 256] × [256, c]` (the kernel's into a zero accumulator, the reference's without one — the same
  sum over the 256 contracted positions at the ideal values); a cut of 256 columns out of a wider matrix; a column
  `[n, 1]` spread over `c` columns (two spellings); and a scalar spread over a whole matrix. Each reads, at
  `ix2 p q`, entries of its operand in row `p` only — the fact the row-by-row comparison of the programs rests on.
-/
import Idealize.ShloMosaic.Lib.StackMember
import Idealize.ShloMosaic.Lib.ValueLayout

noncomputable section

namespace Cert.Lem

open Idealize.ShloMosaic Idealize.ShloMosaic.ValueIdx Idealize.ShloMosaic.StackMember

variable {α : Type}

/-- A column `[a, 1]` spread over `b` columns reads, at `(p, c)`, the column's entry in row `p`. -/
theorem broadcastTo_col_apply {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-- The same spread spelled with explicit axes (`dims = [0, 1]`). -/
theorem broadcastInDim_col_apply {a b : Nat} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-- A scalar (a rank-0 array) spread over any shape reads the scalar everywhere. -/
theorem broadcastInDim_scalar_apply {t : Shape} (dims : Fin 0 → Fin t.rank)
    (h : (⟨0, ![]⟩ : Shape).BroadcastsInDim t dims) (x : (⟨0, ![]⟩ : Shape).Idx → α) (j : t.Idx) :
    broadcastInDim t dims h x j = x (fun a => a.elim0) :=
  broadcastInDim_apply dims h x j (fun a => a.elim0) fun a => a.elim0

/-- The kernel's product `[m, k] × [k, n]` into a zero accumulator, read at `(a, b)`: the sum over the contracted
    position of the products of the entries, at the ideal values. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact dotGeneral_plain_apply prec A B a b

end Cert.Lem

end
-- ==== Proof.KernelStep.lean ====
/-
  The kernel's body, on one block of 1024 batch rows, as six applications of one update.

  The body loads a block of `x`, `dt`, `y`, `z` (1024 rows each) and the three weight matrices whole, computes
  `x · inp2hid` once, and then repeats the same update six times (the source's loop is unrolled). Here that update is
  written once, on blocks (`stepK`), the body's two stored values are shown to be its sixth iterate, and one update is
  read at a row and a column: row `p` of the new block depends on row `p` of the old blocks only, and is the row
  update of `RowSpec` (`stepK_row`). The casts to bf16 around every product are the identity at the ideal values.
-/
import proofs.«127720_j24532853195008_1_alg».proof.Proof.Gen.KernelIdeal.Frame
import proofs.«127720_j24532853195008_1_alg».proof.Proof.RowSpec
import proofs.«127720_j24532853195008_1_alg».proof.Proof.IndexLaws

noncomputable section

namespace Cert.KernelIdeal.Step

open Cert.KernelIdeal Cert.KernelIdeal.Gen Idealize.ShloMosaic Idealize.ShloMosaic.ValueIdx Cert.Lem

variable {F : FTy → Type} [FloatOps F]

/-! ## The update on a block -/

/-- The block of time steps over six. -/
def dt6K (dt : Vec F S1024x1 .f32) : FVec F S1024x1 .f32 :=
  divf dt (broadcast S1024x1 (Scalar.ofBits .f32 0x40C00000#32))

/-- `x · inp2hid` on the block, all 1024 columns. -/
def inpK (x : Vec F S1024x256 .f32) (W1 : Vec F S256x1024 .f32) : FVec F S1024x1024 .f32 :=
  matmul dot_S1024x256_S256x1024_S1024x1024_1_0_0_1_n_n none (truncf .bf16 x bitsLt_bf16_f32) (truncf .bf16 W1 bitsLt_bf16_f32)
    (constant S1024x1024 .f32 0x00000000#32)

/-- `y · hid2hid` on the block, all 768 columns. -/
def hidK (Wh : Vec F S256x768 .f32) (y : FVec F S1024x256 .f32) : FVec F S1024x768 .f32 :=
  matmul dot_S1024x256_S256x768_S1024x768_1_0_0_1_n_n none (truncf .bf16 y bitsLt_bf16_f32) (truncf .bf16 Wh bitsLt_bf16_f32)
    (constant S1024x768 .f32 0x00000000#32)

/-- `z · transform_z` on the block. -/
def ztK (Wz : Vec F S256x256 .f32) (z : FVec F S1024x256 .f32) : FVec F S1024x256 .f32 :=
  matmul dot_S1024x256_S256x256_S1024x256_1_0_0_1_n_n none (truncf .bf16 z bitsLt_bf16_f32) (truncf .bf16 Wz bitsLt_bf16_f32)
    (constant S1024x256 .f32 0x00000000#32)

/-- A gate on the block: the time steps, spread over the 256 columns, times the sigmoid of `a + h`. -/
def gateK (dt6 : FVec F S1024x1 .f32) (a h : FVec F S1024x256 .f32) : FVec F S1024x256 .f32 :=
  mulf (broadcastTo S1024x256 dt6 broadcasts_S1024x1_S1024x256) (logistic (addf a h))

/-- The literal `1.0` on the block. -/
def oneK : FVec F S1024x256 .f32 := broadcast S1024x256 (Scalar.ofBits .f32 0x3F800000#32)

/-- The new `z` block. -/
def newZK (dt6 : FVec F S1024x1 .f32) (a2 a4 : FVec F S1024x256 .f32) (Wh : Vec F S256x768 .f32)
    (y z : FVec F S1024x256 .f32) : FVec F S1024x256 .f32 :=
  addf (mulf (subf oneK (gateK dt6 a2 (extractStridedSlice S1024x256 ![0, 256] (hidK Wh y) slices_S1024x768_o0_256_S1024x256))) z)
    (mulf (gateK dt6 a2 (extractStridedSlice S1024x256 ![0, 256] (hidK Wh y) slices_S1024x768_o0_256_S1024x256))
      (tanh (addf a4 (extractStridedSlice S1024x256 ![0, 512] (hidK Wh y) slices_S1024x768_o0_512_S1024x256))))

/-- The new `y` block, from the old `y` and the NEW `z`. -/
def newYK (dt6 : FVec F S1024x1 .f32) (a1 a3 : FVec F S1024x256 .f32) (Wh : Vec F S256x768 .f32) (Wz : Vec F S256x256 .f32)
    (y z' : FVec F S1024x256 .f32) : FVec F S1024x256 .f32 :=
  addf (mulf (subf oneK (gateK dt6 a1 (extractStridedSlice S1024x256 ![0, 0] (hidK Wh y) slices_S1024x768_o0_0_S1024x256))) y)
    (mulf (gateK dt6 a1 (extractStridedSlice S1024x256 ![0, 0] (hidK Wh y) slices_S1024x768_o0_0_S1024x256))
      (tanh (addf (ztK Wz z') a3)))

/-- One update of the pair of blocks `(y, z)`. -/
def stepK (dt6 : FVec F S1024x1 .f32) (a1 a2 a3 a4 : FVec F S1024x256 .f32) (Wh : Vec F S256x768 .f32) (Wz : Vec F S256x256 .f32)
    (s : FVec F S1024x256 .f32 × FVec F S1024x256 .f32) : FVec F S1024x256 .f32 × FVec F S1024x256 .f32 :=
  (newYK dt6 a1 a3 Wh Wz s.1 (newZK dt6 a2 a4 Wh s.1 s.2), newZK dt6 a2 a4 Wh s.1 s.2)

/-- The body's two results from its seven loads: six updates from the loaded `(y, z)`, the gates' and the tanh's
    constant summands cut out of `x · inp2hid` at columns 0, 256, 512 and 768. -/
def runK (dt : Vec F S1024x1 .f32) (x : Vec F S1024x256 .f32) (W1 : Vec F S256x1024 .f32) (Wh : Vec F S256x768 .f32)
    (Wz : Vec F S256x256 .f32) (y z : Vec F S1024x256 .f32) : FVec F S1024x256 .f32 × FVec F S1024x256 .f32 :=
  (stepK (dt6K dt)
    (extractStridedSlice S1024x256 ![0, 0] (inpK x W1) slices_S1024x1024_o0_0_S1024x256)
    (extractStridedSlice S1024x256 ![0, 256] (inpK x W1) slices_S1024x1024_o0_256_S1024x256)
    (extractStridedSlice S1024x256 ![0, 512] (inpK x W1) slices_S1024x1024_o0_512_S1024x256)
    (extractStridedSlice S1024x256 ![0, 768] (inpK x W1) slices_S1024x1024_o0_768_S1024x256)
    Wh Wz)^[6] (y, z)

/-! ## The body's stores are the sixth iterate -/

/-- What the body leaves in the first result's buffer: the `y` of six updates of the loaded blocks (the printed
    operations, in the printed order, are those of `runK`). -/
theorem out0_7_eq (x0 : Vec F S1024x256 .f32) (x1 : Vec F S1024x1 .f32) (x2 : Vec F S1024x256 .f32) (x3 : Vec F S1024x256 .f32)
    (x4 : Vec F S256x1024 .f32) (x5 : Vec F S256x768 .f32) (x6 : Vec F S256x256 .f32) :
    out0_7 x0 x1 x2 x3 x4 x5 x6
      = View.canon [⟨r0_1, (runK (View.ld x1 r0_0) (View.ld x0 r0_1) (View.ld x4 r0_2) (View.ld x5 r0_3) (View.ld x6 r0_4)
          (View.ld x2 r0_1) (View.ld x3 r0_1)).1⟩] := rfl

/-- What the body leaves in the second result's buffer: the `z` of the same six updates. -/
theorem out0_8_eq (x0 : Vec F S1024x256 .f32) (x1 : Vec F S1024x1 .f32) (x2 : Vec F S1024x256 .f32) (x3 : Vec F S1024x256 .f32)
    (x4 : Vec F S256x1024 .f32) (x5 : Vec F S256x768 .f32) (x6 : Vec F S256x256 .f32) :
    out0_8 x0 x1 x2 x3 x4 x5 x6
      = View.canon [⟨r0_1, (runK (View.ld x1 r0_0) (View.ld x0 r0_1) (View.ld x4 r0_2) (View.ld x5 r0_3) (View.ld x6 r0_4)
          (View.ld x2 r0_1) (View.ld x3 r0_1)).2⟩] := rfl

end Cert.KernelIdeal.Step

end
-- ==== Proof.KernelRow.lean ====
/-
  One update of the kernel's block, read row by row.

  Row `p` of the new `z` block and of the new `y` block are the row updates of `RowSpec` applied to row `p` of the
  old blocks: a product `v · W` at `(p, j)` sums over row `p` of `v`; a cut of columns keeps the row; the column of
  time steps spread over the columns reads its entry of row `p`; everything else is entry by entry. Six updates of the
  block are therefore six updates of each row.
-/
import proofs.«127720_j24532853195008_1_alg».proof.Proof.KernelStep

noncomputable section

namespace Cert.KernelIdeal.Step

open Cert.KernelIdeal Cert.KernelIdeal.Gen Idealize.ShloMosaic Idealize.ShloMosaic.ValueIdx Cert.Lem

/-! ## The three products at a row and a column -/

theorem inpK_apply (x : Vec Ideal S1024x256 .f32) (W1 : Vec Ideal S256x1024 .f32) (p : Fin 1024) (j : Fin 1024) :
    inpK x W1 (ix2 p j) = rowMul (entries W1) (rowAt x p) j :=
  matmul_plain_apply none (truncf .bf16 x bitsLt_bf16_f32) (truncf .bf16 W1 bitsLt_bf16_f32) p j

theorem hidK_apply (Wh : Vec Ideal S256x768 .f32) (y : FVec Ideal S1024x256 .f32) (p : Fin 1024) (j : Fin 768) :
    hidK Wh y (ix2 p j) = rowMul (entries Wh) (rowAt y p) j :=
  matmul_plain_apply none (truncf .bf16 y bitsLt_bf16_f32) (truncf .bf16 Wh bitsLt_bf16_f32) p j

theorem ztK_apply (Wz : Vec Ideal S256x256 .f32) (z : FVec Ideal S1024x256 .f32) (p : Fin 1024) (j : Fin 256) :
    ztK Wz z (ix2 p j) = rowMul (entries Wz) (rowAt z p) j :=
  matmul_plain_apply none (truncf .bf16 z bitsLt_bf16_f32) (truncf .bf16 Wz bitsLt_bf16_f32) p j

/-! ## A gate, and the two new blocks, at a row -/

/-- A gate at `(p, q)`: the time step of row `p` times the sigmoid of the sum there. -/
theorem gateK_apply (dt6 : FVec Ideal S1024x1 .f32) (a h : FVec Ideal S1024x256 .f32) (p : Fin 1024) (q : Fin 256) :
    gateK dt6 a h (ix2 p q) = gate (dt6 (ix2 p (0 : Fin 1))) (a (ix2 p q) + h (ix2 p q)) :=
  congrArg (· * Ideal.logistic (a (ix2 p q) + h (ix2 p q))) (broadcastTo_col_apply dt6 broadcasts_S1024x1_S1024x256 p q)

/-- What the updates of row `p` of a block read. -/
def parK (dt6 : FVec Ideal S1024x1 .f32) (a1 a2 a3 a4 : FVec Ideal S1024x256 .f32) (Wh : Vec Ideal S256x768 .f32)
    (Wz : Vec Ideal S256x256 .f32) (p : Fin 1024) : Par where
  dt := dt6 (ix2 p (0 : Fin 1))
  a1 := rowAt a1 p
  a2 := rowAt a2 p
  a3 := rowAt a3 p
  a4 := rowAt a4 p
  Wh := entries Wh
  Wz := entries Wz

/-- Row `p` of the new `z` block is the row update of row `p`. -/
theorem newZK_row (dt6 : FVec Ideal S1024x1 .f32) (a1 a2 a3 a4 : FVec Ideal S1024x256 .f32) (Wh : Vec Ideal S256x768 .f32)
    (Wz : Vec Ideal S256x256 .f32) (y z : FVec Ideal S1024x256 .f32) (p : Fin 1024) :
    rowAt (newZK dt6 a2 a4 Wh y z) p = newZ (parK dt6 a1 a2 a3 a4 Wh Wz p) (rowAt y p) (rowAt z p) := by
  funext q
  have s256 := slice2_axis1_apply 256 (hidK Wh y) slices_S1024x768_o0_256_S1024x256 p q (col 256 (by norm_num) q) rfl
  have s512 := slice2_axis1_apply 512 (hidK Wh y) slices_S1024x768_o0_512_S1024x256 p q (col 512 (by norm_num) q) rfl
  show (one - _) * _ + _ * Ideal.tanh (_ + _) = _
  rw [gateK_apply, s256, s512, hidK_apply, hidK_apply]
  rfl

/-- Row `p` of the new `y` block is the row update of row `p` (of the old `y` and the new `z`). -/
theorem newYK_row (dt6 : FVec Ideal S1024x1 .f32) (a1 a2 a3 a4 : FVec Ideal S1024x256 .f32) (Wh : Vec Ideal S256x768 .f32)
    (Wz : Vec Ideal S256x256 .f32) (y z' : FVec Ideal S1024x256 .f32) (p : Fin 1024) :
    rowAt (newYK dt6 a1 a3 Wh Wz y z') p = newY (parK dt6 a1 a2 a3 a4 Wh Wz p) (rowAt y p) (rowAt z' p) := by
  funext q
  have s0 := slice2_axis1_apply 0 (hidK Wh y) slices_S1024x768_o0_0_S1024x256 p q (col 0 (by norm_num) q) rfl
  show (one - _) * _ + _ * Ideal.tanh (_ + _) = _
  rw [gateK_apply, s0, hidK_apply, ztK_apply]
  rfl

/-- One update of the block, at row `p`, is one update of the row. -/
theorem stepK_row (dt6 : FVec Ideal S1024x1 .f32) (a1 a2 a3 a4 : FVec Ideal S1024x256 .f32) (Wh : Vec Ideal S256x768 .f32)
    (Wz : Vec Ideal S256x256 .f32) (p : Fin 1024) (s : FVec Ideal S1024x256 .f32 × FVec Ideal S1024x256 .f32) :
    rows p (stepK dt6 a1 a2 a3 a4 Wh Wz s) = step (parK dt6 a1 a2 a3 a4 Wh Wz p) (rows p s) := by
  show (rowAt (newYK dt6 a1 a3 Wh Wz s.1 (newZK dt6 a2 a4 Wh s.1 s.2)) p, rowAt (newZK dt6 a2 a4 Wh s.1 s.2) p) = _
  rw [newYK_row dt6 a1 a2 a3 a4 Wh Wz, newZK_row dt6 a1 a2 a3 a4 Wh Wz]
  rfl

/-! ## Six updates, from the body's loads -/

/-- What the updates of row `p` read, in terms of the loaded blocks: the pieces of `x · inp2hid` are row `p` of
    `x` times `inp2hid`, cut at columns 0, 256, 512, 768. -/
theorem parK_loads (dt : Vec Ideal S1024x1 .f32) (x : Vec Ideal S1024x256 .f32) (W1 : Vec Ideal S256x1024 .f32)
    (Wh : Vec Ideal S256x768 .f32) (Wz : Vec Ideal S256x256 .f32) (p : Fin 1024) :
    parK (dt6K dt)
        (extractStridedSlice S1024x256 ![0, 0] (inpK x W1) slices_S1024x1024_o0_0_S1024x256)
        (extractStridedSlice S1024x256 ![0, 256] (inpK x W1) slices_S1024x1024_o0_256_S1024x256)
        (extractStridedSlice S1024x256 ![0, 512] (inpK x W1) slices_S1024x1024_o0_512_S1024x256)
        (extractStridedSlice S1024x256 ![0, 768] (inpK x W1) slices_S1024x1024_o0_768_S1024x256) Wh Wz p
      = parOf (rowAt x p) (dt (ix2 p (0 : Fin 1))) (entries W1) (entries Wh) (entries Wz) := by
  have e0 : rowAt (extractStridedSlice S1024x256 ![0, 0] (inpK x W1) slices_S1024x1024_o0_0_S1024x256) p
      = fun q => rowMul (entries W1) (rowAt x p) (col 0 (by norm_num) q) := funext fun q =>
    (slice2_axis1_apply 0 (inpK x W1) slices_S1024x1024_o0_0_S1024x256 p q (col 0 (by norm_num) q) rfl).trans (inpK_apply x W1 p _)
  have e1 : rowAt (extractStridedSlice S1024x256 ![0, 256] (inpK x W1) slices_S1024x1024_o0_256_S1024x256) p
      = fun q => rowMul (entries W1) (rowAt x p) (col 256 (by norm_num) q) := funext fun q =>
    (slice2_axis1_apply 256 (inpK x W1) slices_S1024x1024_o0_256_S1024x256 p q (col 256 (by norm_num) q) rfl).trans (inpK_apply x W1 p _)
  have e2 : rowAt (extractStridedSlice S1024x256 ![0, 512] (inpK x W1) slices_S1024x1024_o0_512_S1024x256) p
      = fun q => rowMul (entries W1) (rowAt x p) (col 512 (by norm_num) q) := funext fun q =>
    (slice2_axis1_apply 512 (inpK x W1) slices_S1024x1024_o0_512_S1024x256 p q (col 512 (by norm_num) q) rfl).trans (inpK_apply x W1 p _)
  have e3 : rowAt (extractStridedSlice S1024x256 ![0, 768] (inpK x W1) slices_S1024x1024_o0_768_S1024x256) p
      = fun q => rowMul (entries W1) (rowAt x p) (col 768 (by norm_num) q) := funext fun q =>
    (slice2_axis1_apply 768 (inpK x W1) slices_S1024x1024_o0_768_S1024x256 p q (col 768 (by norm_num) q) rfl).trans (inpK_apply x W1 p _)
  unfold parK parOf
  rw [e0, e1, e2, e3]
  rfl

/-- Row `p` of the body's two results: six row updates of row `p` of the loaded `y` and `z`. -/
theorem runK_rows (dt : Vec Ideal S1024x1 .f32) (x : Vec Ideal S1024x256 .f32) (W1 : Vec Ideal S256x1024 .f32)
    (Wh : Vec Ideal S256x768 .f32) (Wz : Vec Ideal S256x256 .f32) (y z : Vec Ideal S1024x256 .f32) (p : Fin 1024) :
    rows p (runK dt x W1 Wh Wz y z)
      = rowRun (parOf (rowAt x p) (dt (ix2 p (0 : Fin 1))) (entries W1) (entries Wh) (entries Wz)) (rowAt y p) (rowAt z p) := by
  unfold runK rowRun
  rw [iterate_row _ _ (rows p) (fun s => stepK_row _ _ _ _ _ Wh Wz p s) 6 (y, z), parK_loads]
  rfl

end Cert.KernelIdeal.Step

end
-- ==== Proof.KernelBlocks.lean ====
/-
  From the kernel's blocks to its two result arrays.

  The grid has 64 points; point `t` works on batch rows `1024·t … 1024·t + 1023` of `x`, `dt`, `y`, `z` and of both
  results, and on the three weight matrices whole. So row `p` of a block at point `t` is row `1024·t + p` of its array,
  what point `t` writes back is block `t` of the specification's arrays (`finalY`, `finalZ`: every row six row updates
  of that row of the arguments), and the 64 blocks cover all 65536 rows: after the run the two result arrays ARE the
  specification's.
-/
import proofs.«127720_j24532853195008_1_alg».proof.Proof.ValuePatched
import proofs.«127720_j24532853195008_1_alg».proof.Proof.KernelRow

noncomputable section

namespace Cert.KernelIdeal.Blocks

open Cert.KernelIdeal Cert.KernelIdeal.Gen Cert.KernelIdeal.Step Idealize.ShloMosaic Idealize.ShloMosaic.TcCoe Idealize.SL.Sem
open Idealize.ShloMosaic.ValueIdx Cert.Lem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 64 grid points: the four batch-tiled inputs and the two results are at
    block `(t, 0)`, the three weight matrices at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## Each input block, read where its array holds it -/

/-- Row `p` of the block of `x` at point `t` is row `1024·t + p` of `x`. -/
theorem blk_x (c : Dev nD) (t : Fin cfg0.N) (p : Fin 1024) (r : Fin 65536) (hr : r.val = t.val * 1024 + p.val) :
    rowAt (iblk m c 0 t : Vec Ideal S1024x256 .f32) p = rowAt (V m c main_arg0 : Vec Ideal S65536x256 .f32) r := by
  obtain ⟨e0, e1, -⟩ := idx_facts t
  funext k
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 1024 + 1 * p.val = r.val; omega
  | ⟨1, _⟩ => show win0_0.index t (1 : Fin 2) * 256 + 1 * k.val = k.val; omega

/-- The time step of row `p` of the block at point `t` is that of row `1024·t + p`. -/
theorem blk_dt (c : Dev nD) (t : Fin cfg0.N) (p : Fin 1024) (r : Fin 65536) (hr : r.val = t.val * 1024 + p.val) :
    (iblk m c 1 t : Vec Ideal S1024x1 .f32) (ix2 p (0 : Fin 1)) = (V m c main_arg1 : Vec Ideal S65536x1 .f32) (ix2 r (0 : Fin 1)) := by
  obtain ⟨-, -, e0, e1, -⟩ := idx_facts t
  show V m c main_arg1 (((cfg0.win 1).blk t).view.emb (ix2 p (0 : Fin 1))) = V m c main_arg1 (ix2 r (0 : Fin 1))
  refine congrArg _ (funext fun a => Fin.ext ?_)
  match a with
  | ⟨0, _⟩ => show win0_1.index t (0 : Fin 2) * 1024 + 1 * p.val = r.val; omega
  | ⟨1, _⟩ => show win0_1.index t (1 : Fin 2) * 1 + 1 * 0 = 0; omega

/-- Row `p` of the block of `y` at point `t` is row `1024·t + p` of `y`. -/
theorem blk_y (c : Dev nD) (t : Fin cfg0.N) (p : Fin 1024) (r : Fin 65536) (hr : r.val = t.val * 1024 + p.val) :
    rowAt (iblk m c 2 t : Vec Ideal S1024x256 .f32) p = rowAt (V m c main_arg2 : Vec Ideal S65536x256 .f32) r := by
  obtain ⟨-, -, -, -, e0, e1, -⟩ := idx_facts t
  funext k
  show V m c main_arg2 (((cfg0.win 2).blk t).view.emb (ix2 p k)) = V m c main_arg2 (ix2 r k)
  refine congrArg _ (funext fun a => Fin.ext ?_)
  match a with
  | ⟨0, _⟩ => show win0_2.index t (0 : Fin 2) * 1024 + 1 * p.val = r.val; omega
  | ⟨1, _⟩ => show win0_2.index t (1 : Fin 2) * 256 + 1 * k.val = k.val; omega

/-- Row `p` of the block of `z` at point `t` is row `1024·t + p` of `z`. -/
theorem blk_z (c : Dev nD) (t : Fin cfg0.N) (p : Fin 1024) (r : Fin 65536) (hr : r.val = t.val * 1024 + p.val) :
    rowAt (iblk m c 3 t : Vec Ideal S1024x256 .f32) p = rowAt (V m c main_arg3 : Vec Ideal S65536x256 .f32) r := by
  obtain ⟨-, -, -, -, -, -, e0, e1, -⟩ := idx_facts t
  funext k
  show V m c main_arg3 (((cfg0.win 3).blk t).view.emb (ix2 p k)) = V m c main_arg3 (ix2 r k)
  refine congrArg _ (funext fun a => Fin.ext ?_)
  match a with
  | ⟨0, _⟩ => show win0_3.index t (0 : Fin 2) * 1024 + 1 * p.val = r.val; omega
  | ⟨1, _⟩ => show win0_3.index t (1 : Fin 2) * 256 + 1 * k.val = k.val; omega

/-- The block of `inp2hid` at every point is the whole matrix. -/
theorem blk_W1 (c : Dev nD) (t : Fin cfg0.N) :
    entries (iblk m c 4 t : Vec Ideal S256x1024 .f32) = entries (V m c main_arg4 : Vec Ideal S256x1024 .f32) := by
  obtain ⟨-, -, -, -, -, -, -, -, e0, e1, -⟩ := idx_facts t
  funext k j
  show V m c main_arg4 (((cfg0.win 4).blk t).view.emb (ix2 k j)) = V m c main_arg4 (ix2 k j)
  refine congrArg _ (funext fun a => Fin.ext ?_)
  match a with
  | ⟨0, _⟩ => show win0_4.index t (0 : Fin 2) * 256 + 1 * k.val = k.val; omega
  | ⟨1, _⟩ => show win0_4.index t (1 : Fin 2) * 1024 + 1 * j.val = j.val; omega

/-- The block of `hid2hid` at every point is the whole matrix. -/
theorem blk_Wh (c : Dev nD) (t : Fin cfg0.N) :
    entries (iblk m c 5 t : Vec Ideal S256x768 .f32) = entries (V m c main_arg5 : Vec Ideal S256x768 .f32) := by
  obtain ⟨-, -, -, -, -, -, -, -, -, -, e0, e1, -⟩ := idx_facts t
  funext k j
  show V m c main_arg5 (((cfg0.win 5).blk t).view.emb (ix2 k j)) = V m c main_arg5 (ix2 k j)
  refine congrArg _ (funext fun a => Fin.ext ?_)
  match a with
  | ⟨0, _⟩ => show win0_5.index t (0 : Fin 2) * 256 + 1 * k.val = k.val; omega
  | ⟨1, _⟩ => show win0_5.index t (1 : Fin 2) * 768 + 1 * j.val = j.val; omega

/-- The block of `transform_z` at every point is the whole matrix. -/
theorem blk_Wz (c : Dev nD) (t : Fin cfg0.N) :
    entries (iblk m c 6 t : Vec Ideal S256x256 .f32) = entries (V m c main_arg6 : Vec Ideal S256x256 .f32) := by
  obtain ⟨-, -, -, -, -, -, -, -, -, -, -, -, e0, e1, -⟩ := idx_facts t
  funext k j
  show V m c main_arg6 (((cfg0.win 6).blk t).view.emb (ix2 k j)) = V m c main_arg6 (ix2 k j)
  refine congrArg _ (funext fun a => Fin.ext ?_)
  match a with
  | ⟨0, _⟩ => show win0_6.index t (0 : Fin 2) * 256 + 1 * k.val = k.val; omega
  | ⟨1, _⟩ => show win0_6.index t (1 : Fin 2) * 256 + 1 * j.val = j.val; omega

/-! ## What a point computes -/

/-- At point `t`, row `p` of the body's two results: six row updates of row `1024·t + p` of the arguments. -/
theorem rows_at (c : Dev nD) (t : Fin cfg0.N) (p : Fin 1024) (r : Fin 65536) (hr : r.val = t.val * 1024 + p.val) :
    rows p (runK (iblk m c 1 t) (iblk m c 0 t) (iblk m c 4 t) (iblk m c 5 t) (iblk m c 6 t) (iblk m c 2 t) (iblk m c 3 t))
      = rowRun (parAt (V m c main_arg0) (V m c main_arg1) (V m c main_arg4) (V m c main_arg5) (V m c main_arg6) r)
          (rowAt (V m c main_arg2 : Vec Ideal S65536x256 .f32) r) (rowAt (V m c main_arg3 : Vec Ideal S65536x256 .f32) r) := by
  rw [runK_rows]
  unfold parAt
  rw [blk_x m c t p r hr, blk_dt m c t p r hr, blk_y m c t p r hr, blk_z m c t p r hr, blk_W1 m c t, blk_Wh m c t, blk_Wz m c t]

/-- The array index of entry `(p, q)` of a result's block at point `t`: row `1024·t + p`, column `q`. -/
theorem emb7 (t : Fin cfg0.N) (p : Fin 1024) (q : Fin 256) (r : Fin 65536) (hr : r.val = t.val * 1024 + p.val) :
    ((cfg0.win 7).blk t).view.emb (ix2 p q) = ix2 r q := by
  obtain ⟨-, -, -, -, -, -, -, -, -, -, -, -, -, -, e0, e1, -⟩ := idx_facts t
  funext a; apply Fin.ext
  match a with
  | ⟨0, _⟩ => show win0_7.index t (0 : Fin 2) * 1024 + 1 * p.val = r.val; omega
  | ⟨1, _⟩ => show win0_7.index t (1 : Fin 2) * 256 + 1 * q.val = q.val; omega

theorem emb8 (t : Fin cfg0.N) (p : Fin 1024) (q : Fin 256) (r : Fin 65536) (hr : r.val = t.val * 1024 + p.val) :
    ((cfg0.win 8).blk t).view.emb (ix2 p q) = ix2 r q := by
  obtain ⟨-, -, -, -, -, -, -, -, -, -, -, -, -, -, -, -, e0, e1⟩ := idx_facts t
  funext a; apply Fin.ext
  match a with
  | ⟨0, _⟩ => show win0_8.index t (0 : Fin 2) * 1024 + 1 * p.val = r.val; omega
  | ⟨1, _⟩ => show win0_8.index t (1 : Fin 2) * 256 + 1 * q.val = q.val; omega

/-- The row of the arrays that row `p` of point `t`'s blocks is. -/
def rowOf (t : Fin cfg0.N) (p : Fin 1024) : Fin 65536 := ⟨t.val * 1024 + p.val, by
  have ht : t.val < 64 := t.isLt
  have hp := p.isLt
  omega⟩

/-! ## What point `t` writes back -/

/-- The first result: point `t` writes back block `t` of `finalY` of the argument arrays. -/
theorem flushed7_eq (c : Dev nD) (t : Fin cfg0.N) :
    (dats m 0 c).flushed 7 t = ((cfg0.win 7).blk t).view.read (Elt Ideal)
      (finalY (V m c main_arg0) (V m c main_arg1) (V m c main_arg2) (V m c main_arg3) (V m c main_arg4) (V m c main_arg5) (V m c main_arg6)) := by
  rw [ValueP.flushed7, out0_7_eq, View.canon_unit_zero hz]
  simp only [View.ld_unit_zero (S := S1024x256) hz, View.ld_unit_zero (S := S1024x1) hz, View.ld_unit_zero (S := S256x1024) hz,
    View.ld_unit_zero (S := S256x768) hz, View.ld_unit_zero (S := S256x256) hz]
  funext j
  obtain ⟨p, q, rfl⟩ : ∃ (p : Fin 1024) (q : Fin 256), j = ix2 p q := ⟨j 0, j 1, eq_ix2 j⟩
  show (runK (iblk m c 1 t) (iblk m c 0 t) (iblk m c 4 t) (iblk m c 5 t) (iblk m c 6 t) (iblk m c 2 t) (iblk m c 3 t)).1 (ix2 p q)
    = finalY (V m c main_arg0) (V m c main_arg1) (V m c main_arg2) (V m c main_arg3) (V m c main_arg4) (V m c main_arg5) (V m c main_arg6)
        (((cfg0.win 7).blk t).view.emb (ix2 p q))
  rw [emb7 t p q (rowOf t p) rfl]
  exact congrFun (congrArg Prod.fst (rows_at m c t p (rowOf t p) rfl)) q

/-- The second result: point `t` writes back block `t` of `finalZ` of the argument arrays. -/
theorem flushed8_eq (c : Dev nD) (t : Fin cfg0.N) :
    (dats m 0 c).flushed 8 t = ((cfg0.win 8).blk t).view.read (Elt Ideal)
      (finalZ (V m c main_arg0) (V m c main_arg1) (V m c main_arg2) (V m c main_arg3) (V m c main_arg4) (V m c main_arg5) (V m c main_arg6)) := by
  rw [ValueP.flushed8, out0_8_eq, View.canon_unit_zero hz]
  simp only [View.ld_unit_zero (S := S1024x256) hz, View.ld_unit_zero (S := S1024x1) hz, View.ld_unit_zero (S := S256x1024) hz,
    View.ld_unit_zero (S := S256x768) hz, View.ld_unit_zero (S := S256x256) hz]
  funext j
  obtain ⟨p, q, rfl⟩ : ∃ (p : Fin 1024) (q : Fin 256), j = ix2 p q := ⟨j 0, j 1, eq_ix2 j⟩
  show (runK (iblk m c 1 t) (iblk m c 0 t) (iblk m c 4 t) (iblk m c 5 t) (iblk m c 6 t) (iblk m c 2 t) (iblk m c 3 t)).2 (ix2 p q)
    = finalZ (V m c main_arg0) (V m c main_arg1) (V m c main_arg2) (V m c main_arg3) (V m c main_arg4) (V m c main_arg5) (V m c main_arg6)
        (((cfg0.win 8).blk t).view.emb (ix2 p q))
  rw [emb8 t p q (rowOf t p) rfl]
  exact congrFun (congrArg Prod.snd (rows_at m c t p (rowOf t p) rfl)) q

/-! ## The 64 blocks cover the arrays -/

/-- An index of the first result is in point `t`'s block iff each coordinate is in the block's range on its axis. -/
theorem mem_blk7 (t : Fin cfg0.N) (i : S65536x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v0_0).slice (win0_7.rect t)).set ↔ _
  rw [View.set_slice_whole, Rect.mem_set_unit]
  exact Iff.rfl

theorem mem_blk8 (t : Fin cfg0.N) (i : S65536x256.Idx) :
    i ∈ ((cfg0.win 8).blk t).view.set ↔ ∀ a : Fin 2, win0_8.index t a * S1024x256.size a ≤ (i a).val ∧ (i a).val < win0_8.index t a * S1024x256.size a + S1024x256.size a := by
  show i ∈ ((View.whole main_v0_1).slice (win0_8.rect t)).set ↔ _
  rw [View.set_slice_whole, Rect.mem_set_unit]
  exact Iff.rfl

/-- Row `r` is in the block of point `r / 1024`. -/
theorem cover7 (i : S65536x256.Idx) : ∃ t : Fin cfg0.N, (cfg0.win 7).flush t = true ∧ i ∈ ((cfg0.win 7).blk t).view.set := by
  have hi0 : (i 0).val < 65536 := (i 0).isLt
  have hi1 : (i 1).val < 256 := (i 1).isLt
  let t : Fin cfg0.N := ⟨(i 0).val / 1024, by show (i 0).val / 1024 < 64; omega⟩
  have ht : t.val = (i 0).val / 1024 := rfl
  obtain ⟨-, -, -, -, -, -, -, -, -, -, -, -, -, -, e0, e1, -⟩ := idx_facts t
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 256 ≤ (i 1).val ∧ (i 1).val < win0_7.index t (1 : Fin 2) * 256 + 256; omega

theorem cover8 (i : S65536x256.Idx) : ∃ t : Fin cfg0.N, (cfg0.win 8).flush t = true ∧ i ∈ ((cfg0.win 8).blk t).view.set := by
  have hi0 : (i 0).val < 65536 := (i 0).isLt
  have hi1 : (i 1).val < 256 := (i 1).isLt
  let t : Fin cfg0.N := ⟨(i 0).val / 1024, by show (i 0).val / 1024 < 64; omega⟩
  have ht : t.val = (i 0).val / 1024 := rfl
  obtain ⟨-, -, -, -, -, -, -, -, -, -, -, -, -, -, -, -, e0, e1⟩ := idx_facts t
  refine ⟨t, flush0_8 t, ?_⟩
  rw [mem_blk8]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 256 ≤ (i 1).val ∧ (i 1).val < win0_8.index t (1 : Fin 2) * 256 + 256; omega

/-! ## The arrays after the run, and the run -/

/-- After the run the first result array is `finalY` of the argument arrays. -/
theorem final7 (c : Dev nD) : (dats m 0 c).arrAt 7 cfg0.N
    = finalY (V m c main_arg0) (V m c main_arg1) (V m c main_arg2) (V m c main_arg3) (V m c main_arg4) (V m c main_arg5) (V m c main_arg6) :=
  (dats m 0 c).arrAt_eq_of_cover 7 _ (fun t _ => flushed7_eq m c t) cover7

/-- After the run the second result array is `finalZ` of the argument arrays. -/
theorem final8 (c : Dev nD) : (dats m 0 c).arrAt 8 cfg0.N
    = finalZ (V m c main_arg0) (V m c main_arg1) (V m c main_arg2) (V m c main_arg3) (V m c main_arg4) (V m c main_arg5) (V m c main_arg6) :=
  (dats m 0 c).arrAt_eq_of_cover 8 _ (fun t _ => flushed8_eq m c t) cover8

/-- The kernel's run: every weakly fair execution terminates with the two results at the specification's arrays of
    the arguments, the arguments unchanged. -/
theorem run : θ_run defs (onTc (τ := τ) (main (F := Ideal))) ⟨m, fun _ => 0, ρ⟩ fun r => ∀ c : Dev nD,
      r.2.mem ((c : Thread nD τ).loc main_v0_0)
        = finalY (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_v0_1)
        = finalZ (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (ValueP.run_blocks m ρ)

end Cert.KernelIdeal.Blocks

end
-- ==== Proof.RefStep.lean ====
/-
  The reference, on all 65536 batch rows at once, as six applications of one update.

  The reference computes `x · inp2hid` once and repeats the update of `RowSpec` six times on whole arrays. Its
  spelling differs from the kernel's in three places only: products have no accumulator, the sigmoid is written out as
  `1 / (1 + exp (−s))`, and constants and the column of time steps are spread with explicit axes. Here the update is
  written once on whole arrays (`stepR`) and the run's two result terms are shown to be its sixth iterate.
-/
import proofs.«127720_j24532853195008_1_alg».proof.Proof.Gen.ReferenceIdeal.Run
import proofs.«127720_j24532853195008_1_alg».proof.Proof.RowSpec
import proofs.«127720_j24532853195008_1_alg».proof.Proof.IndexLaws

noncomputable section

namespace Cert.ReferenceIdeal.Step

open Cert.ReferenceIdeal Cert.ReferenceIdeal.Gen Idealize.ShloMosaic Idealize.ShloMosaic.ValueIdx Idealize.ShloMosaic.StableHlo Cert.Lem

variable {F : FTy → Type} [FloatOps F]

/-! ## The update on whole arrays -/

/-- The literal `1.0` on a whole array. -/
def oneR : FVec F S65536x256 .f32 := broadcastInDim S65536x256 ![] bcast_S_S65536x256 (constant S_ .f32 0x3F800000#32)

/-- The column of time steps over six. -/
def dt6R (dt : FVec F S65536x1 .f32) : FVec F S65536x1 .f32 :=
  Host.divf dt (broadcastInDim S65536x1 ![] bcast_S_S65536x1 (constant S_ .f32 0x40C00000#32))

/-- `x · inp2hid`, all 1024 columns. -/
def inpR (x : FVec F S65536x256 .f32) (W1 : FVec F S256x1024 .f32) : FVec F S65536x1024 .f32 :=
  Host.dotGeneral dot_S65536x256_S256x1024_S65536x1024_1_0_0_1_n_n none x W1

/-- `y · hid2hid`, all 768 columns. -/
def hidR (Wh : FVec F S256x768 .f32) (y : FVec F S65536x256 .f32) : FVec F S65536x768 .f32 :=
  Host.dotGeneral dot_S65536x256_S256x768_S65536x768_1_0_0_1_n_n none y Wh

/-- `z · transform_z`. -/
def ztR (Wz : FVec F S256x256 .f32) (z : FVec F S65536x256 .f32) : FVec F S65536x256 .f32 :=
  Host.dotGeneral dot_S65536x256_S256x256_S65536x256_1_0_0_1_n_n none z Wz

/-- A gate: the time steps, spread over the 256 columns, times the sigmoid of `a + h` written out. -/
def gateR (dt6 : FVec F S65536x1 .f32) (a h : FVec F S65536x256 .f32) : FVec F S65536x256 .f32 :=
  mulf (broadcastInDim S65536x256 ![0, 1] bcast_S65536x1_S65536x256_0_1 dt6)
    (Host.divf oneR (addf oneR (Host.exp (Host.negf (addf a h)))))

/-- The new `z`. -/
def newZR (dt6 : FVec F S65536x1 .f32) (a2 a4 : FVec F S65536x256 .f32) (Wh : FVec F S256x768 .f32)
    (y z : FVec F S65536x256 .f32) : FVec F S65536x256 .f32 :=
  addf (mulf (subf oneR (gateR dt6 a2 (extractStridedSlice S65536x256 ![0, 256] (hidR Wh y) slices_S65536x768_S65536x256_0_256))) z)
    (mulf (gateR dt6 a2 (extractStridedSlice S65536x256 ![0, 256] (hidR Wh y) slices_S65536x768_S65536x256_0_256))
      (Host.tanh (addf a4 (extractStridedSlice S65536x256 ![0, 512] (hidR Wh y) slices_S65536x768_S65536x256_0_512))))

/-- The new `y`, from the old `y` and the NEW `z`. -/
def newYR (dt6 : FVec F S65536x1 .f32) (a1 a3 : FVec F S65536x256 .f32) (Wh : FVec F S256x768 .f32) (Wz : FVec F S256x256 .f32)
    (y z' : FVec F S65536x256 .f32) : FVec F S65536x256 .f32 :=
  addf (mulf (subf oneR (gateR dt6 a1 (extractStridedSlice S65536x256 ![0, 0] (hidR Wh y) slices_S65536x768_S65536x256_0_0))) y)
    (mulf (gateR dt6 a1 (extractStridedSlice S65536x256 ![0, 0] (hidR Wh y) slices_S65536x768_S65536x256_0_0))
      (Host.tanh (addf (ztR Wz z') a3)))

/-- One update of the pair of arrays `(y, z)`. -/
def stepR (dt6 : FVec F S65536x1 .f32) (a1 a2 a3 a4 : FVec F S65536x256 .f32) (Wh : FVec F S256x768 .f32) (Wz : FVec F S256x256 .f32)
    (s : FVec F S65536x256 .f32 × FVec F S65536x256 .f32) : FVec F S65536x256 .f32 × FVec F S65536x256 .f32 :=
  (newYR dt6 a1 a3 Wh Wz s.1 (newZR dt6 a2 a4 Wh s.1 s.2), newZR dt6 a2 a4 Wh s.1 s.2)

/-- The reference's two results from its seven arguments: six updates from `(y, z)`. -/
def runR (dt : FVec F S65536x1 .f32) (x : FVec F S65536x256 .f32) (W1 : FVec F S256x1024 .f32) (Wh : FVec F S256x768 .f32)
    (Wz : FVec F S256x256 .f32) (y z : FVec F S65536x256 .f32) : FVec F S65536x256 .f32 × FVec F S65536x256 .f32 :=
  (stepR (dt6R dt)
    (extractStridedSlice S65536x256 ![0, 0] (inpR x W1) slices_S65536x1024_S65536x256_0_0)
    (extractStridedSlice S65536x256 ![0, 256] (inpR x W1) slices_S65536x1024_S65536x256_0_256)
    (extractStridedSlice S65536x256 ![0, 512] (inpR x W1) slices_S65536x1024_S65536x256_0_512)
    (extractStridedSlice S65536x256 ![0, 768] (inpR x W1) slices_S65536x1024_S65536x256_0_768)
    Wh Wz)^[6] (y, z)

/-! ## The run's result terms are the sixth iterate -/

/-- The first result buffer after the reference's operations holds the `y` of six updates of the arguments (the
    operations of the run's composed term, in order, are those of `runR`). -/
theorem result_y (V0 : Valuation τ sig (Elt F)) :
    Value.val5 V0 (no_index (Proc.devRef .tc main_v228))
      = (runR (V0 (Proc.devRef .tc main_arg1)) (V0 (Proc.devRef .tc main_arg0)) (V0 (Proc.devRef .tc main_arg4))
          (V0 (Proc.devRef .tc main_arg5)) (V0 (Proc.devRef .tc main_arg6)) (V0 (Proc.devRef .tc main_arg2))
          (V0 (Proc.devRef .tc main_arg3))).1 :=
  (Value.val5_main_v228 V0).trans rfl

/-- The second result buffer holds the `z` of the same six updates. -/
theorem result_z (V0 : Valuation τ sig (Elt F)) :
    Value.val5 V0 (no_index (Proc.devRef .tc main_v220))
      = (runR (V0 (Proc.devRef .tc main_arg1)) (V0 (Proc.devRef .tc main_arg0)) (V0 (Proc.devRef .tc main_arg4))
          (V0 (Proc.devRef .tc main_arg5)) (V0 (Proc.devRef .tc main_arg6)) (V0 (Proc.devRef .tc main_arg2))
          (V0 (Proc.devRef .tc main_arg3))).2 :=
  (Value.val5_main_v220 V0).trans rfl

end Cert.ReferenceIdeal.Step

end
-- ==== Proof.RefRow.lean ====
/-
  One update of the reference's arrays, read row by row.

  Row `r` of the new `z` and of the new `y` are the row updates of `RowSpec` applied to row `r` of the old arrays,
  for the same reasons as on a block of the kernel; the reference's sigmoid, written `1 / (1 + exp (−s))` with the
  literal `1.0` spread over the array, is the one-operation sigmoid on every extended real. Six updates of the arrays
  are therefore six updates of each row.
-/
import proofs.«127720_j24532853195008_1_alg».proof.Proof.RefStep

noncomputable section

namespace Cert.ReferenceIdeal.Step

open Cert.ReferenceIdeal Cert.ReferenceIdeal.Gen Idealize.ShloMosaic Idealize.ShloMosaic.ValueIdx Idealize.ShloMosaic.StackMember Cert.Lem

/-! ## The three products at a row and a column -/

theorem inpR_apply (x : FVec Ideal S65536x256 .f32) (W1 : FVec Ideal S256x1024 .f32) (r : Fin 65536) (j : Fin 1024) :
    inpR x W1 (ix2 r j) = rowMul (entries W1) (rowAt x r) j :=
  dotGeneral_plain_apply none x W1 r j

theorem hidR_apply (Wh : FVec Ideal S256x768 .f32) (y : FVec Ideal S65536x256 .f32) (r : Fin 65536) (j : Fin 768) :
    hidR Wh y (ix2 r j) = rowMul (entries Wh) (rowAt y r) j :=
  dotGeneral_plain_apply none y Wh r j

theorem ztR_apply (Wz : FVec Ideal S256x256 .f32) (z : FVec Ideal S65536x256 .f32) (r : Fin 65536) (j : Fin 256) :
    ztR Wz z (ix2 r j) = rowMul (entries Wz) (rowAt z r) j :=
  dotGeneral_plain_apply none z Wz r j

/-! ## A gate, and the two new arrays, at a row -/

/-- The spread literal `1.0` reads `1.0` everywhere. -/
theorem oneR_apply (i : S65536x256.Idx) : (oneR (F := Ideal)) i = one :=
  broadcastInDim_scalar_apply ![] bcast_S_S65536x256 (constant (F := Ideal) S_ .f32 0x3F800000#32) i

/-- A gate at `(r, q)`: the time step of row `r` times the sigmoid of the sum there. -/
theorem gateR_apply (dt6 : FVec Ideal S65536x1 .f32) (a h : FVec Ideal S65536x256 .f32) (r : Fin 65536) (q : Fin 256) :
    gateR dt6 a h (ix2 r q) = gate (dt6 (ix2 r (0 : Fin 1))) (a (ix2 r q) + h (ix2 r q)) := by
  show broadcastInDim S65536x256 ![0, 1] bcast_S65536x1_S65536x256_0_1 dt6 (ix2 r q)
      * Ideal.div (oneR (F := Ideal) (ix2 r q)) (oneR (F := Ideal) (ix2 r q) + Ideal.exp (-(a (ix2 r q) + h (ix2 r q)))) = _
  rw [broadcastInDim_col_apply dt6 bcast_S65536x1_S65536x256_0_1 r q, oneR_apply, sigmoid_spelled]
  rfl

/-- What the updates of row `r` of the arrays read. -/
def parR (dt6 : FVec Ideal S65536x1 .f32) (a1 a2 a3 a4 : FVec Ideal S65536x256 .f32) (Wh : FVec Ideal S256x768 .f32)
    (Wz : FVec Ideal S256x256 .f32) (r : Fin 65536) : Par where
  dt := dt6 (ix2 r (0 : Fin 1))
  a1 := rowAt a1 r
  a2 := rowAt a2 r
  a3 := rowAt a3 r
  a4 := rowAt a4 r
  Wh := entries Wh
  Wz := entries Wz

/-- Row `r` of the new `z` is the row update of row `r`. -/
theorem newZR_row (dt6 : FVec Ideal S65536x1 .f32) (a1 a2 a3 a4 : FVec Ideal S65536x256 .f32) (Wh : FVec Ideal S256x768 .f32)
    (Wz : FVec Ideal S256x256 .f32) (y z : FVec Ideal S65536x256 .f32) (r : Fin 65536) :
    rowAt (newZR dt6 a2 a4 Wh y z) r = newZ (parR dt6 a1 a2 a3 a4 Wh Wz r) (rowAt y r) (rowAt z r) := by
  funext q
  have s256 := slice2_axis1_apply 256 (hidR Wh y) slices_S65536x768_S65536x256_0_256 r q (col 256 (by norm_num) q) rfl
  have s512 := slice2_axis1_apply 512 (hidR Wh y) slices_S65536x768_S65536x256_0_512 r q (col 512 (by norm_num) q) rfl
  show (one - _) * _ + _ * Ideal.tanh (_ + _) = _
  rw [gateR_apply, s256, s512, hidR_apply, hidR_apply]
  rfl

/-- Row `r` of the new `y` is the row update of row `r` (of the old `y` and the new `z`). -/
theorem newYR_row (dt6 : FVec Ideal S65536x1 .f32) (a1 a2 a3 a4 : FVec Ideal S65536x256 .f32) (Wh : FVec Ideal S256x768 .f32)
    (Wz : FVec Ideal S256x256 .f32) (y z' : FVec Ideal S65536x256 .f32) (r : Fin 65536) :
    rowAt (newYR dt6 a1 a3 Wh Wz y z') r = newY (parR dt6 a1 a2 a3 a4 Wh Wz r) (rowAt y r) (rowAt z' r) := by
  funext q
  have s0 := slice2_axis1_apply 0 (hidR Wh y) slices_S65536x768_S65536x256_0_0 r q (col 0 (by norm_num) q) rfl
  show (one - _) * _ + _ * Ideal.tanh (_ + _) = _
  rw [gateR_apply, s0, hidR_apply, ztR_apply]
  rfl

/-- One update of the arrays, at row `r`, is one update of the row. -/
theorem stepR_row (dt6 : FVec Ideal S65536x1 .f32) (a1 a2 a3 a4 : FVec Ideal S65536x256 .f32) (Wh : FVec Ideal S256x768 .f32)
    (Wz : FVec Ideal S256x256 .f32) (r : Fin 65536) (s : FVec Ideal S65536x256 .f32 × FVec Ideal S65536x256 .f32) :
    rows r (stepR dt6 a1 a2 a3 a4 Wh Wz s) = step (parR dt6 a1 a2 a3 a4 Wh Wz r) (rows r s) := by
  show (rowAt (newYR dt6 a1 a3 Wh Wz s.1 (newZR dt6 a2 a4 Wh s.1 s.2)) r, rowAt (newZR dt6 a2 a4 Wh s.1 s.2) r) = _
  rw [newYR_row dt6 a1 a2 a3 a4 Wh Wz, newZR_row dt6 a1 a2 a3 a4 Wh Wz]
  rfl

/-! ## Six updates, from the arguments -/

/-- What the updates of row `r` read, in terms of the arguments. -/
theorem parR_args (dt : FVec Ideal S65536x1 .f32) (x : FVec Ideal S65536x256 .f32) (W1 : FVec Ideal S256x1024 .f32)
    (Wh : FVec Ideal S256x768 .f32) (Wz : FVec Ideal S256x256 .f32) (r : Fin 65536) :
    parR (dt6R dt)
        (extractStridedSlice S65536x256 ![0, 0] (inpR x W1) slices_S65536x1024_S65536x256_0_0)
        (extractStridedSlice S65536x256 ![0, 256] (inpR x W1) slices_S65536x1024_S65536x256_0_256)
        (extractStridedSlice S65536x256 ![0, 512] (inpR x W1) slices_S65536x1024_S65536x256_0_512)
        (extractStridedSlice S65536x256 ![0, 768] (inpR x W1) slices_S65536x1024_S65536x256_0_768) Wh Wz r
      = parAt x dt W1 Wh Wz r := by
  have e0 : rowAt (extractStridedSlice S65536x256 ![0, 0] (inpR x W1) slices_S65536x1024_S65536x256_0_0) r
      = fun q => rowMul (entries W1) (rowAt x r) (col 0 (by norm_num) q) := funext fun q =>
    (slice2_axis1_apply 0 (inpR x W1) slices_S65536x1024_S65536x256_0_0 r q (col 0 (by norm_num) q) rfl).trans (inpR_apply x W1 r _)
  have e1 : rowAt (extractStridedSlice S65536x256 ![0, 256] (inpR x W1) slices_S65536x1024_S65536x256_0_256) r
      = fun q => rowMul (entries W1) (rowAt x r) (col 256 (by norm_num) q) := funext fun q =>
    (slice2_axis1_apply 256 (inpR x W1) slices_S65536x1024_S65536x256_0_256 r q (col 256 (by norm_num) q) rfl).trans (inpR_apply x W1 r _)
  have e2 : rowAt (extractStridedSlice S65536x256 ![0, 512] (inpR x W1) slices_S65536x1024_S65536x256_0_512) r
      = fun q => rowMul (entries W1) (rowAt x r) (col 512 (by norm_num) q) := funext fun q =>
    (slice2_axis1_apply 512 (inpR x W1) slices_S65536x1024_S65536x256_0_512 r q (col 512 (by norm_num) q) rfl).trans (inpR_apply x W1 r _)
  have e3 : rowAt (extractStridedSlice S65536x256 ![0, 768] (inpR x W1) slices_S65536x1024_S65536x256_0_768) r
      = fun q => rowMul (entries W1) (rowAt x r) (col 768 (by norm_num) q) := funext fun q =>
    (slice2_axis1_apply 768 (inpR x W1) slices_S65536x1024_S65536x256_0_768 r q (col 768 (by norm_num) q) rfl).trans (inpR_apply x W1 r _)
  have ed : dt6R dt (ix2 r (0 : Fin 1)) = Ideal.div (dt (ix2 r (0 : Fin 1))) six :=
    congrArg (Ideal.div (dt (ix2 r (0 : Fin 1))))
      (broadcastInDim_scalar_apply ![] bcast_S_S65536x1 (constant (F := Ideal) S_ .f32 0x40C00000#32) (ix2 r (0 : Fin 1)))
  unfold parR parAt parOf
  rw [e0, e1, e2, e3, ed]

/-- The reference's two results are the specification's two arrays: at every row, six row updates of that row of the
    arguments. -/
theorem runR_eq (dt : FVec Ideal S65536x1 .f32) (x : FVec Ideal S65536x256 .f32) (W1 : FVec Ideal S256x1024 .f32)
    (Wh : FVec Ideal S256x768 .f32) (Wz : FVec Ideal S256x256 .f32) (y z : FVec Ideal S65536x256 .f32) :
    (runR dt x W1 Wh Wz y z).1 = finalY x dt y z W1 Wh Wz ∧ (runR dt x W1 Wh Wz y z).2 = finalZ x dt y z W1 Wh Wz := by
  have key : ∀ r : Fin 65536, rows r (runR dt x W1 Wh Wz y z) = rowRun (parAt x dt W1 Wh Wz r) (rowAt y r) (rowAt z r) := fun r => by
    unfold runR rowRun
    rw [iterate_row _ _ (rows r) (fun s => stepR_row _ _ _ _ _ Wh Wz r s) 6 (y, z), parR_args]
    rfl
  constructor
  · funext i
    exact (congrArg (runR dt x W1 Wh Wz y z).1 (eq_ix2 i)).trans (congrFun (congrArg Prod.fst (key (i 0))) (i 1))
  · funext i
    exact (congrArg (runR dt x W1 Wh Wz y z).2 (eq_ix2 i)).trans (congrFun (congrArg Prod.snd (key (i 0))) (i 1))

end Cert.ReferenceIdeal.Step

end
-- ==== Proof.lean ====
/-
  A Pallas kernel for six steps of a gated two-state recurrence against its plain jnp reference, over the extended reals.

  Both programs take `x, y, z : [65536, 256]`, `dt : [65536, 1]` and the weights `inp2hid : [256, 1024]`,
  `hid2hid : [256, 768]`, `transform_z : [256, 256]`, and return `(y, z)` after six updates

      h  = y · hid2hid                                   (three pieces of 256 columns)
      gz = (dt / 6) · σ((x · inp2hid)[256..512) + h[256..512))
      z' = (1 − gz) · z + gz · tanh((x · inp2hid)[768..1024) + h[512..768))
      gy = (dt / 6) · σ((x · inp2hid)[0..256) + h[0..256))
      y' = (1 − gy) · y + gy · tanh(z' · transform_z + (x · inp2hid)[512..768)).

  The kernel works on 1024 batch rows per grid point, casts the operands of every product to bf16 (the identity at the
  ideal values) and accumulates each product into zero; the reference works on all rows at once and writes the sigmoid
  out as `1 / (1 + exp (−s))`. No update mixes two batch rows, and the sigmoid's two spellings are one function on
  every extended real, so at each row both programs apply the same six row updates (`RowSpec`) to the same numbers:
  the results agree entry by entry, with no use of the inputs' finiteness. The ideal pass rewrote nothing of the kernel,
  so that it is the kernel's sanctioned idealization holds trivially; the three frames are the generated ones.
-/
import proofs.«127720_j24532853195008_1_alg».proof.Defs
import proofs.«127720_j24532853195008_1_alg».proof.Proof.Gen.Kernel
import proofs.«127720_j24532853195008_1_alg».proof.Proof.Gen.Kernel.Skeleton
import proofs.«127720_j24532853195008_1_alg».proof.Proof.Gen.Kernel.Launch
import proofs.«127720_j24532853195008_1_alg».proof.Proof.Gen.Kernel.Points
import proofs.«127720_j24532853195008_1_alg».proof.Proof.Gen.Kernel.Frame
import proofs.«127720_j24532853195008_1_alg».proof.Proof.Gen.KernelIdeal
import proofs.«127720_j24532853195008_1_alg».proof.Proof.Gen.KernelIdeal.Skeleton
import proofs.«127720_j24532853195008_1_alg».proof.Proof.Gen.KernelIdeal.Launch
import proofs.«127720_j24532853195008_1_alg».proof.Proof.Gen.KernelIdeal.Points
import proofs.«127720_j24532853195008_1_alg».proof.Proof.Gen.KernelIdeal.Frame
import proofs.«127720_j24532853195008_1_alg».proof.Proof.Gen.ReferenceIdeal
import proofs.«127720_j24532853195008_1_alg».proof.Proof.Gen.ReferenceIdeal.Run
import proofs.«127720_j24532853195008_1_alg».proof.Proof.Gen.Pre_finite_inputs
import proofs.«127720_j24532853195008_1_alg».proof.Proof.KernelBlocks
import proofs.«127720_j24532853195008_1_alg».proof.Proof.RefRow
import Idealize.ShloMosaic.Adequacy
import Idealize.ShloMosaic.Init

noncomputable section

namespace Cert.Proof

open Idealize.ShloMosaic Idealize.ShloMosaic.TcCoe Idealize.SL.Sem Cert.Lem

/-- The kernel as printed runs, faults nowhere and leaves its arguments unchanged (the generated frame). -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- At the ideal values both programs, from memories that agree on the seven arguments, end with `y` and `z` at the
    specification's two arrays of those arguments: the kernel block by block, the reference on whole arrays. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6⟩ := hagree c
    rw [← h0, ← h1, ← h2, ← h3, ← h4, ← h5, ← h6]
    exact ((Cert.ReferenceIdeal.Value.val5_main_v228 _).symm.trans
      (Cert.ReferenceIdeal.Step.result_y _)).trans
      (Cert.ReferenceIdeal.Step.runR_eq _ _ _ _ _ _ _).1
  · obtain ⟨h0, h1, h2, h3, h4, h5, h6⟩ := hagree c
    rw [← h0, ← h1, ← h2, ← h3, ← h4, ← h5, ← h6]
    exact ((Cert.ReferenceIdeal.Value.val5_main_v220 _).symm.trans
      (Cert.ReferenceIdeal.Step.result_z _)).trans
      (Cert.ReferenceIdeal.Step.runR_eq _ _ _ _ _ _ _).2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
